-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S28x256 : Shape := ⟨2, ![28, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S28x256 : S_.BroadcastsInDim S28x256 (![] : Fin 0 → Fin S28x256.rank)
  reducesTo_S28x256_S_d0_1 : S28x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S64x1 .f32) (main_arg11 : FVec F S1 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S256 .f32) (main_arg8 : FVec F S256x64 .f32) (main_arg9 : FVec F S64 .f32) (main_arg10 : FVec F S64x1 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg8
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : IVec S50000 32) (main_arg1 : IVec S2x800000 32) (main_arg2 : IVec S50000 32) (main_arg3 : FVec F S28x256 .f32) (main_arg4 : FVec F S256x256 .f32) (main_arg5 : FVec F S256 .f32) (main_arg6 : FVec F S256x256 .f32) (main_arg7 : FVec F S256 .f32) (main_arg8 : FVec F S256x64 .f32) (main_arg9 : FVec F S64 .f32) (main_arg10 : FVec F S64x1 .f32) (main_arg11 : FVec F S1 .f32) : IVec S_ 1 :=
  let main_v0 : FVec F S28x256 .f32 := Host.absf main_arg3
  let main_cst : FVec F S_ .f32 := constant S_ .f32 0x7F800000#32
  let main_v1 : FVec F S28x256 .f32 := broadcastInDim S28x256 ![] bcast_S_S28x256 main_cst
  let main_v2 : IVec S28x256 1 := cmpf .olt main_v0 main_v1
  let main_c : IVec S_ 1 := constantI S_ 1 1#1
  let main_v3 : IVec S_ 1 := (fun x v => Host.reduce IntOp.andi x v reducesTo_S28x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_v13 main_v16
-- ==== Kernel.lean ====
abbrev S50000 : Shape := ⟨1, ![50000]⟩
abbrev S2x800000 : Shape := ⟨2, ![2, 800000]⟩
abbrev S28x256 : Shape := ⟨2, ![28, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S50000x1 : Shape := ⟨2, ![50000, 1]⟩
abbrev S50000x256 : Shape := ⟨2, ![50000, 256]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩
abbrev S128x64 : Shape := ⟨2, ![128, 64]⟩
abbrev S1x64 : Shape := ⟨2, ![1, 64]⟩
abbrev S1x1 : Shape := ⟨2, ![1, 1]⟩

abbrev nBuf : Space → Nat
  | .hbm => 184
  | .vmem => 10
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S28x256, .f32⟩
  | 4 => ⟨S256x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S64x1, .f32⟩
  | 11 => ⟨S1, .f32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x256, .f32⟩
  | 21 => ⟨S50000, .i32⟩
  | 22 => ⟨S1x800000, .i32⟩
  | 23 => ⟨S800000, .i32⟩
  | 24 => ⟨S850000, .i32⟩
  | 25 => ⟨S1x800000, .i32⟩
  | 26 => ⟨S800000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x256, .f32⟩
  | 74 => ⟨S850000x1, .f32⟩
  | 75 => ⟨S850000x256, .f32⟩
  | 76 => ⟨S850000x256, .f32⟩
  | 77 => ⟨S_, .f32⟩
  | 78 => ⟨S50000x256, .f32⟩
  | 79 => ⟨S850000x1, .i32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000, .i32⟩
  | 88 => ⟨S1x800000, .i32⟩
  | 89 => ⟨S800000, .i32⟩
  | 90 => ⟨S850000, .i32⟩
  | 91 => ⟨S1x800000, .i32⟩
  | 92 => ⟨S800000, .i32⟩
  | 93 => ⟨S850000, .i32⟩
  | 94 => ⟨S_, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S_, .f32⟩
  | 101 => ⟨S50000, .f32⟩
  | 102 => ⟨S50000, .i1⟩
  | 103 => ⟨S_, .f32⟩
  | 104 => ⟨S50000, .f32⟩
  | 105 => ⟨S50000, .f32⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000, .i32⟩

abbrev hbmTy0_1 (i : Nat) : BufTy := match i % 128 with
  | 0 => ⟨S850000, .f32⟩
  | 1 => ⟨S850000, .f32⟩
  | 2 => ⟨S50000x256, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x256, .f32⟩
  | 12 => ⟨S850000x1, .f32⟩
  | 13 => ⟨S850000x256, .f32⟩
  | 14 => ⟨S850000x256, .f32⟩
  | 15 => ⟨S_, .f32⟩
  | 16 => ⟨S50000x256, .f32⟩
  | 17 => ⟨S850000x1, .i32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S_, .f32⟩
  | 26 => ⟨S128x256, .f32⟩
  | 27 => ⟨S50000x1, .i32⟩
  | 28 => ⟨S128x256, .f32⟩
  | 29 => ⟨S_, .f32⟩
  | 30 => ⟨S50000, .f32⟩
  | 31 => ⟨S_, .f32⟩
  | 32 => ⟨S128, .f32⟩
  | 33 => ⟨S50000x1, .i32⟩
  | 34 => ⟨S128, .f32⟩
  | 35 => ⟨S_, .f32⟩
  | 36 => ⟨S128, .f32⟩
  | 37 => ⟨S128, .f32⟩
  | 38 => ⟨S128x1, .f32⟩
  | 39 => ⟨S128x256, .f32⟩
  | 40 => ⟨S128x256, .f32⟩
  | 41 => ⟨S_, .f32⟩
  | 42 => ⟨S128x256, .f32⟩
  | 43 => ⟨S128x256, .f32⟩
  | 44 => ⟨S128x64, .f32⟩
  | 45 => ⟨S1x64, .f32⟩
  | 46 => ⟨S128x64, .f32⟩
  | 47 => ⟨S128x64, .f32⟩
  | 48 => ⟨S_, .f32⟩
  | 49 => ⟨S128x64, .f32⟩
  | 50 => ⟨S128x64, .f32⟩
  | 51 => ⟨S128x1, .f32⟩
  | 52 => ⟨S1x1, .f32⟩
  | 53 => ⟨S128x1, .f32⟩
  | 54 => ⟨S128x1, .f32⟩
  | 55 => ⟨S128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_19 : Ref sig .tc := ⟨.hbm, 120, rfl⟩
abbrev main_v81 : Ref sig .tc := ⟨.hbm, 121, rfl⟩
abbrev main_v82 : Ref sig .tc := ⟨.hbm, 122, rfl⟩
abbrev main_c_20 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_v90 : Ref sig .tc := ⟨.hbm, 132, rfl⟩
abbrev main_v91 : Ref sig .tc := ⟨.hbm, 133, rfl⟩
abbrev main_c_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call3_cst : Ref sig .tc := ⟨.hbm, 150, rfl⟩
abbrev main_call3_v0 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_cst_26 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call4_cst : Ref sig .tc := ⟨.hbm, 169, rfl⟩
abbrev main_call4_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_call5_cst : Ref sig .tc := ⟨.hbm, 176, rfl⟩
abbrev main_call5_v0 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S28x256_S50000x1_S50000x256_1_0_n_n_0_1_1256_wf : GatherDims.WF S28x256 S50000x1 S50000x256 [1] [0] [] [0] [] 1 ![1, 256]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x64_S128x64_1_0_0_1_n_n_wf : DotDims.WF S128x256 S256x64 S128x64 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)

variable [Facts₀]

def gather_S28x256_S50000x1_S50000x256_1_0_n_n_0_1_1256 : GatherDims S28x256 S50000x1 S50000x256 where
  offsetDims := [1]
  collapsedSliceDims := [0]
  operandBatchingDims := []
  startIndicesBatchingDims := []
  startIndexMap := [0]
  indexVectorDim := 1
  sliceSizes := ![1, 256]
  wf := gather_S28x256_S50000x1_S50000x256_1_0_n_n_0_1_1256_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v6) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v89) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000 : Shape := ⟨1, ![50000]⟩
abbrev S2x800000 : Shape := ⟨2, ![2, 800000]⟩
abbrev S28x256 : Shape := ⟨2, ![28, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S50000x1 : Shape := ⟨2, ![50000, 1]⟩
abbrev S50000x256 : Shape := ⟨2, ![50000, 256]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩
abbrev S128x64 : Shape := ⟨2, ![128, 64]⟩
abbrev S1x64 : Shape := ⟨2, ![1, 64]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S28x256, .f32⟩
  | 4 => ⟨S256x256, .f32⟩
  | 5 => ⟨S256, .f32⟩
  | 6 => ⟨S256x256, .f32⟩
  | 7 => ⟨S256, .f32⟩
  | 8 => ⟨S256x64, .f32⟩
  | 9 => ⟨S64, .f32⟩
  | 10 => ⟨S64x1, .f32⟩
  | 11 => ⟨S1, .f32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x256, .f32⟩
  | 21 => ⟨S50000, .i32⟩
  | 22 => ⟨S1x800000, .i32⟩
  | 23 => ⟨S800000, .i32⟩
  | 24 => ⟨S850000, .i32⟩
  | 25 => ⟨S1x800000, .i32⟩
  | 26 => ⟨S800000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x256, .f32⟩
  | 74 => ⟨S850000x1, .f32⟩
  | 75 => ⟨S850000x256, .f32⟩
  | 76 => ⟨S850000x256, .f32⟩
  | 77 => ⟨S_, .f32⟩
  | 78 => ⟨S50000x256, .f32⟩
  | 79 => ⟨S850000x1, .i32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000, .i32⟩
  | 88 => ⟨S1x800000, .i32⟩
  | 89 => ⟨S800000, .i32⟩
  | 90 => ⟨S850000, .i32⟩
  | 91 => ⟨S1x800000, .i32⟩
  | 92 => ⟨S800000, .i32⟩
  | 93 => ⟨S850000, .i32⟩
  | 94 => ⟨S_, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S_, .f32⟩
  | 101 => ⟨S50000, .f32⟩
  | 102 => ⟨S50000, .i1⟩
  | 103 => ⟨S_, .f32⟩
  | 104 => ⟨S50000, .f32⟩
  | 105 => ⟨S50000, .f32⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000, .i32⟩

abbrev hbmTy0_1 (i : Nat) : BufTy := match i % 128 with
  | 0 => ⟨S850000, .f32⟩
  | 1 => ⟨S850000, .f32⟩
  | 2 => ⟨S50000x256, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x256, .f32⟩
  | 12 => ⟨S850000x1, .f32⟩
  | 13 => ⟨S850000x256, .f32⟩
  | 14 => ⟨S850000x256, .f32⟩
  | 15 => ⟨S_, .f32⟩
  | 16 => ⟨S50000x256, .f32⟩
  | 17 => ⟨S850000x1, .i32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S_, .f32⟩
  | 26 => ⟨S128x256, .f32⟩
  | 27 => ⟨S50000x1, .i32⟩
  | 28 => ⟨S128x256, .f32⟩
  | 29 => ⟨S_, .f32⟩
  | 30 => ⟨S50000, .f32⟩
  | 31 => ⟨S_, .f32⟩
  | 32 => ⟨S128, .f32⟩
  | 33 => ⟨S50000x1, .i32⟩
  | 34 => ⟨S128, .f32⟩
  | 35 => ⟨S_, .f32⟩
  | 36 => ⟨S128, .f32⟩
  | 37 => ⟨S128, .f32⟩
  | 38 => ⟨S128x1, .f32⟩
  | 39 => ⟨S128x256, .f32⟩
  | 40 => ⟨S128x256, .f32⟩
  | 41 => ⟨S_, .f32⟩
  | 42 => ⟨S128x256, .f32⟩
  | 43 => ⟨S128x256, .f32⟩
  | 44 => ⟨S128x64, .f32⟩
  | 45 => ⟨S1x64, .f32⟩
  | 46 => ⟨S128x64, .f32⟩
  | 47 => ⟨S128x64, .f32⟩
  | 48 => ⟨S_, .f32⟩
  | 49 => ⟨S128x64, .f32⟩
  | 50 => ⟨S128x64, .f32⟩
  | 51 => ⟨S128x1, .f32⟩
  | 52 => ⟨S1x1, .f32⟩
  | 53 => ⟨S128x1, .f32⟩
  | 54 => ⟨S128x1, .f32⟩
  | 55 => ⟨S128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_19 : Ref sig .tc := ⟨.hbm, 120, rfl⟩
abbrev main_v81 : Ref sig .tc := ⟨.hbm, 121, rfl⟩
abbrev main_v82 : Ref sig .tc := ⟨.hbm, 122, rfl⟩
abbrev main_c_20 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_v90 : Ref sig .tc := ⟨.hbm, 132, rfl⟩
abbrev main_v91 : Ref sig .tc := ⟨.hbm, 133, rfl⟩
abbrev main_c_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call3_cst : Ref sig .tc := ⟨.hbm, 150, rfl⟩
abbrev main_call3_v0 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_cst_26 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call4_cst : Ref sig .tc := ⟨.hbm, 169, rfl⟩
abbrev main_call4_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_call5_cst : Ref sig .tc := ⟨.hbm, 176, rfl⟩
abbrev main_call5_v0 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S28x256_S50000x1_S50000x256_1_0_n_n_0_1_1256_wf : GatherDims.WF S28x256 S50000x1 S50000x256 [1] [0] [] [0] [] 1 ![1, 256]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x64_S128x64_1_0_0_1_n_n_wf : DotDims.WF S128x256 S256x64 S128x64 [1] [0] [0] [1] [] []
  dot_S128x64_S64x1_S128x1_1_0_0_1_n_n_wf : DotDims.WF S128x64 S64x1 S128x1 [1] [0] [0] [1] [] []

variable [Facts₀]

def gather_S28x256_S50000x1_S50000x256_1_0_n_n_0_1_1256 : GatherDims S28x256 S50000x1 S50000x256 where
  offsetDims := [1]
  collapsedSliceDims := [0]
  operandBatchingDims := []
  startIndicesBatchingDims := []
  startIndexMap := [0]
  indexVectorDim := 1
  sliceSizes := ![1, 256]
  wf := gather_S28x256_S50000x1_S50000x256_1_0_n_n_0_1_1256_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.KernelRun.lean ====
/-
  The idealized kernel program's run with its result named.

  The program is two pipelined regions among stretches of host operations. Its frame proof walks the buffer
  contents from the launch memory through every stretch and every region to the last boundary; at that boundary
  every unscoped buffer of a core holds the last boundary's contents. Read there, the result buffer holds those
  contents at the result's reference, and the argument buffers hold the launch memory.
-/
import proofs.«175458_j36515811951203_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates without a fault; at the end the result buffer holds the
    last boundary's contents at the result's reference and every argument buffer holds what it was launched with:
    the segments' run from the launch memory, the last thread state read against the final state. -/
theorem run_result : θ_run defs (onTc (τ := τ) (main (F := F))) ⟨m, fun _ => 0, ρ⟩ (fun r => ∀ c : Dev nD,
      r.2.mem ((c.tc : Thread nD τ).loc main_v129) = W17 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v129 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c)⟩)

end Cert.KernelIdeal.RunValue

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«175458_j36515811951203_1_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.RegionArrays.lean ====
/-
  What each of the two pipelined regions leaves in its output array.

  Each region multiplies a 50000×256 array by a 256×256 array of weights, 5000 rows at a grid point: at point t the
  body loads rows 5000 t … 5000 t + 4999 of the input and the whole weights, multiplies them into a zero accumulator
  and stores the 5000×256 product, which is written back as rows 5000 t … 5000 t + 4999 of the output. Entry (r, c)
  of a product is the sum over k of left (r, k) · right (k, c), so it depends on row r of the left operand only: the
  block's product is the matching block of rows of the whole product. The ten blocks cover the output, so after the
  region the output array is the whole product of the arrays the region found. On extended reals the body's casts to a
  narrower format are the identity.
-/
import proofs.«175458_j36515811951203_1_alg».proof.Proof.Gen.KernelIdeal.Frame
import proofs.«175458_j36515811951203_1_alg».proof.Proof.LibRowBlocks
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## Region 0: rows of `main_v6` times `main_arg4` into `main_v39` -/

/-- The body's one stored value: the block of rows times the weights. The casts on the way into the product are the
    identity on extended reals, the reshape is to the same shape, and the product starts from the zero accumulator. -/
theorem pay0_eq (x0 : Vec Ideal S5000x256 .f32) (x1 : Vec Ideal S256x256 .f32) :
    k0_pay1 (F := Ideal) x0 x1 = PlainDot.mm (M := 5000) (K := 256) (N := 256) x0 x1 := by
  unfold k0_pay1
  refine (PlainDot.matmul_zero_eq_mm (M := 5000) (K := 256) (N := 256) none _ _).trans ?_
  show PlainDot.mm (M := 5000) (K := 256) (N := 256) (shapeCast S5000x256 x0 shapeCasts_S5000x256_S5000x256) x1 = _
  rw [shapeCast_self]

/-- The index maps over the grid: the row blocks of the input and of the output move together, block `t` at point
    `t`; nothing moves along the columns; the weights' one block stays. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The weights' block at any point is the whole weights array. -/
theorem wblock0 (c : Dev nD) (t : Fin cfg0.N) : iblk0 V c 1 t = V c main_arg4 := by
  obtain ⟨e0, e1, e2, e3, e4, e5⟩ := idx_facts0 t
  funext y
  show V c main_arg4 (((cfg0.win 1).blk t).view.emb y) = V c main_arg4 y
  refine congrArg (V c main_arg4) ?_
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point `t` writes back is block `t` of the whole product: a row of the block's product depends on that
    row of the block only, and that row is row `5000 t + r` of the whole input. -/
theorem flushed0 (c : Dev nD) (t : Fin cfg0.N) :
    (dat0 (F := Ideal) V c).flushed 2 t
      = ((cfg0.win 2).blk t).view.read (Elt Ideal) (PlainDot.mm (M := 50000) (K := 256) (N := 256) (V c main_v6) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  rw [pay0_eq, wblock0]
  obtain ⟨e0, e1, e2, e3, e4, e5⟩ := idx_facts0 t
  funext j
  show PlainDot.mm (M := 5000) (K := 256) (N := 256) (iblk0 V c 0 t) (V c main_arg4) j
    = PlainDot.mm (M := 50000) (K := 256) (N := 256) (V c main_v6) (V c main_arg4) (((cfg0.win 2).blk t).view.emb j)
  refine RowBlocks.mm_block_entry (V c main_v6) (iblk0 V c 0 t) (V c main_arg4) (((cfg0.win 2).blk t).view.emb j) j (fun k => ?_) ?_
  · show V c main_v6 (((cfg0.win 0).blk t).view.emb (ix2 (j 0) k)) = V c main_v6 (ix2 ((((cfg0.win 2).blk t).view.emb j) 0) k)
    refine congrArg (V c main_v6) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show (j 1).val = win0_2.index t (1 : Fin 2) * 256 + 1 * (j 1).val; omega

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v39).slice (win0_2.rect t)).set ↔ _
  rw [View.set_slice_whole, Rect.mem_set_unit]
  exact Iff.rfl

/-- Every row lies in the block of the point `row / 5000`, and every point writes its block back. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region is the whole product of the input array and the weights, as the region found them. -/
theorem array0 (c : Dev nD) :
    (dat0 (F := Ideal) V c).arrAt 2 cfg0.N = PlainDot.mm (M := 50000) (K := 256) (N := 256) (V c main_v6) (V c main_arg4) :=
  (dat0 (F := Ideal) V c).arrAt_eq_of_cover 2 _ (fun t _ => flushed0 V c t) cover0

/-! ## Region 1: rows of `main_v56` times `main_arg6` into `main_v89` -/

/-- The body's one stored value: the block of rows times the weights. The casts on the way into the product are the
    identity on extended reals, the reshape is to the same shape, and the product starts from the zero accumulator. -/
theorem pay1_eq (x0 : Vec Ideal S5000x256 .f32) (x1 : Vec Ideal S256x256 .f32) :
    k1_pay1 (F := Ideal) x0 x1 = PlainDot.mm (M := 5000) (K := 256) (N := 256) x0 x1 := by
  unfold k1_pay1
  refine (PlainDot.matmul_zero_eq_mm (M := 5000) (K := 256) (N := 256) none _ _).trans ?_
  show PlainDot.mm (M := 5000) (K := 256) (N := 256) (shapeCast S5000x256 x0 shapeCasts_S5000x256_S5000x256) x1 = _
  rw [shapeCast_self]

/-- The index maps over the grid: the row blocks of the input and of the output move together, block `t` at point
    `t`; nothing moves along the columns; the weights' one block stays. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The weights' block at any point is the whole weights array. -/
theorem wblock1 (c : Dev nD) (t : Fin cfg1.N) : iblk1 V c 1 t = V c main_arg6 := by
  obtain ⟨e0, e1, e2, e3, e4, e5⟩ := idx_facts1 t
  funext y
  show V c main_arg6 (((cfg1.win 1).blk t).view.emb y) = V c main_arg6 y
  refine congrArg (V c main_arg6) ?_
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- What point `t` writes back is block `t` of the whole product: a row of the block's product depends on that
    row of the block only, and that row is row `5000 t + r` of the whole input. -/
theorem flushed1 (c : Dev nD) (t : Fin cfg1.N) :
    (dat1 (F := Ideal) V c).flushed 2 t
      = ((cfg1.win 2).blk t).view.read (Elt Ideal) (PlainDot.mm (M := 50000) (K := 256) (N := 256) (V c main_v56) (V c main_arg6)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  rw [pay1_eq, wblock1]
  obtain ⟨e0, e1, e2, e3, e4, e5⟩ := idx_facts1 t
  funext j
  show PlainDot.mm (M := 5000) (K := 256) (N := 256) (iblk1 V c 0 t) (V c main_arg6) j
    = PlainDot.mm (M := 50000) (K := 256) (N := 256) (V c main_v56) (V c main_arg6) (((cfg1.win 2).blk t).view.emb j)
  refine RowBlocks.mm_block_entry (V c main_v56) (iblk1 V c 0 t) (V c main_arg6) (((cfg1.win 2).blk t).view.emb j) j (fun k => ?_) ?_
  · show V c main_v56 (((cfg1.win 0).blk t).view.emb (ix2 (j 0) k)) = V c main_v56 (ix2 ((((cfg1.win 2).blk t).view.emb j) 0) k)
    refine congrArg (V c main_v56) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  · show (j 1).val = win1_2.index t (1 : Fin 2) * 256 + 1 * (j 1).val; omega

/-- An index of the output array is in point `t`'s block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v89).slice (win1_2.rect t)).set ↔ _
  rw [View.set_slice_whole, Rect.mem_set_unit]
  exact Iff.rfl

/-- Every row lies in the block of the point `row / 5000`, and every point writes its block back. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region is the whole product of the input array and the weights, as the region found them. -/
theorem array1 (c : Dev nD) :
    (dat1 (F := Ideal) V c).arrAt 2 cfg1.N = PlainDot.mm (M := 50000) (K := 256) (N := 256) (V c main_v56) (V c main_arg6) :=
  (dat1 (F := Ideal) V c).arrAt_eq_of_cover 2 _ (fun t _ => flushed1 V c t) cover1

end Cert.KernelIdeal.RegionValue

end
-- ==== Proof.CallCasts.lean ====
/-
  The values that pass through an outlined function call.

  An operation inside an outlined function (a `where`, a rectifier) reads and writes a buffer through the statement
  that the buffer's type is the value's type, and moves the value along that equation. For each buffer of the program's
  six calls the two types are the same type, so moving a value along the equation, in either direction, gives the value
  back. One pair of statements per buffer, with both types spelt out, so that a rewrite finds them.
-/
import proofs.«175458_j36515811951203_1_alg».proof.Proof.Gen.KernelIdeal.Launch

noncomputable section

namespace Cert.KernelIdeal.CallCasts

open Cert.KernelIdeal Cert.KernelIdeal.Gen Idealize.ShloMosaic Idealize.SL.Sem

variable {F : FTy → Type} [FloatOps F]

theorem to_main_cst_4 (h : (⟨S_, .f32⟩ : BufTy).Contents (Elt F) = (main_cst_4 : Ref sig .tc).ty.Contents (Elt F)) (v : (⟨S_, .f32⟩ : BufTy).Contents (Elt F)) : cast h v = v := cast_eq h v
theorem of_main_cst_4 (h : (main_cst_4 : Ref sig .tc).ty.Contents (Elt F) = (⟨S_, .f32⟩ : BufTy).Contents (Elt F)) (v : (main_cst_4 : Ref sig .tc).ty.Contents (Elt F)) : cast h v = v := cast_eq h v
theorem to_main_call0_v0 (h : (⟨S_, .f32⟩ : BufTy).Contents (Elt F) = (main_call0_v0 : Ref sig .tc).ty.Contents (Elt F)) (v : (⟨S_, .f32⟩ : BufTy).Contents (Elt F)) : cast h v = v := cast_eq h v
theorem of_main_call0_v0 (h : (main_call0_v0 : Ref sig .tc).ty.Contents (Elt F) = (⟨S_, .f32⟩ : BufTy).Contents (Elt F)) (v : (main_call0_v0 : Ref sig .tc).ty.Contents (Elt F)) : cast h v = v := cast_eq h v
theorem to_main_call0_v1 (h : (⟨S50000, .f32⟩ : BufTy).Contents (Elt F) = (main_call0_v1 : Ref sig .tc).ty.Contents (Elt F)) (v : (⟨S50000, .f32⟩ : BufTy).Contents (Elt F)) : cast h v = v := cast_eq h v
theorem of_main_call0_v1 (h : (main_call0_v1 : Ref sig .tc).ty.Contents (Elt F) = (⟨S50000, .f32⟩ : BufTy).Contents (Elt F)) (v : (main_call0_v1 : Ref sig .tc).ty.Contents (Elt F)) : cast h v = v := cast_eq h v
theorem to_main_v19 (h : (⟨S50000, .i1⟩ : BufTy).Contents (Elt F) = (main_v19 : Ref sig .tc).ty.Contents (Elt F)) (v : (⟨S50000, .i1⟩ : BufTy).Contents (Elt F)) : cast h v = v := cast_eq h v
theorem of_main_v19 (h : (main_v19 : Ref sig .tc).ty.Contents (Elt F) = (⟨S50000, .i1⟩ : BufTy).Contents (Elt F)) (v : (main_v19 : Ref sig .tc).ty.Contents (Elt F)) : cast h v = v := cast_eq h v
theorem to_main_v22 (h : (⟨S50000, .f32⟩ : BufTy).Contents (Elt F) = (main_v22 : Ref sig .tc).ty.Contents (Elt F)) (v : (⟨S50000, .f32⟩ : BufTy).Contents (Elt F)) : cast h v = v := cast_eq h v
theorem of_main_v22 (h : (main_v22 : Ref sig .tc).ty.Contents (Elt F) = (⟨S50000, .f32⟩ : BufTy).Contents (Elt F)) (v : (main_v22 : Ref sig .tc).ty.Contents (Elt F)) : cast h v = v := cast_eq h v
theorem to_main_v23 (h : (⟨S50000, .f32⟩ : BufTy).Contents (Elt F) = (main_v23 : Ref sig .tc).ty.Contents (Elt F)) (v : (⟨S50000, .f32⟩ : BufTy).Contents (Elt F)) : cast h v = v := cast_eq h v
theorem of_main_v23 (h : (main_v23 : Ref sig .tc).ty.Contents (Elt F) = (⟨S50000, .f32⟩ : BufTy).Contents (Elt F)) (v : (main_v23 : Ref sig .tc).ty.Contents (Elt F)) : cast h v = v := cast_eq h v
theorem to_main_call1_cst (h : (⟨S_, .f32⟩ : BufTy).Contents (Elt F) = (main_call1_cst : Ref sig .tc).ty.Contents (Elt F)) (v : (⟨S_, .f32⟩ : BufTy).Contents (Elt F)) : cast h v = v := cast_eq h v
theorem of_main_call1_cst (h : (main_call1_cst : Ref sig .tc).ty.Contents (Elt F) = (⟨S_, .f32⟩ : BufTy).Contents (Elt F)) (v : (main_call1_cst : Ref sig .tc).ty.Contents (Elt F)) : cast h v = v := cast_eq h v
theorem to_main_call1_v0 (h : (⟨S50000x256, .f32⟩ : BufTy).Contents (Elt F) = (main_call1_v0 : Ref sig .tc).ty.Contents (Elt F)) (v : (⟨S50000x256, .f32⟩ : BufTy).Contents (Elt F)) : cast h v = v := cast_eq h v
theorem of_main_call1_v0 (h : (main_call1_v0 : Ref sig .tc).ty.Contents (Elt F) = (⟨S50000x256, .f32⟩ : BufTy).Contents (Elt F)) (v : (main_call1_v0 : Ref sig .tc).ty.Contents (Elt F)) : cast h v = v := cast_eq h v
theorem to_main_v55 (h : (⟨S50000x256, .f32⟩ : BufTy).Contents (Elt F) = (main_v55 : Ref sig .tc).ty.Contents (Elt F)) (v : (⟨S50000x256, .f32⟩ : BufTy).Contents (Elt F)) : cast h v = v := cast_eq h v
theorem of_main_v55 (h : (main_v55 : Ref sig .tc).ty.Contents (Elt F) = (⟨S50000x256, .f32⟩ : BufTy).Contents (Elt F)) (v : (main_v55 : Ref sig .tc).ty.Contents (Elt F)) : cast h v = v := cast_eq h v
theorem to_main_v56 (h : (⟨S50000x256, .f32⟩ : BufTy).Contents (Elt F) = (main_v56 : Ref sig .tc).ty.Contents (Elt F)) (v : (⟨S50000x256, .f32⟩ : BufTy).Contents (Elt F)) : cast h v = v := cast_eq h v
theorem of_main_v56 (h : (main_v56 : Ref sig .tc).ty.Contents (Elt F) = (⟨S50000x256, .f32⟩ : BufTy).Contents (Elt F)) (v : (main_v56 : Ref sig .tc).ty.Contents (Elt F)) : cast h v = v := cast_eq h v
theorem to_main_cst_16 (h : (⟨S_, .f32⟩ : BufTy).Contents (Elt F) = (main_cst_16 : Ref sig .tc).ty.Contents (Elt F)) (v : (⟨S_, .f32⟩ : BufTy).Contents (Elt F)) : cast h v = v := cast_eq h v
theorem of_main_cst_16 (h : (main_cst_16 : Ref sig .tc).ty.Contents (Elt F) = (⟨S_, .f32⟩ : BufTy).Contents (Elt F)) (v : (main_cst_16 : Ref sig .tc).ty.Contents (Elt F)) : cast h v = v := cast_eq h v
theorem to_main_call2_v0 (h : (⟨S_, .f32⟩ : BufTy).Contents (Elt F) = (main_call2_v0 : Ref sig .tc).ty.Contents (Elt F)) (v : (⟨S_, .f32⟩ : BufTy).Contents (Elt F)) : cast h v = v := cast_eq h v
theorem of_main_call2_v0 (h : (main_call2_v0 : Ref sig .tc).ty.Contents (Elt F) = (⟨S_, .f32⟩ : BufTy).Contents (Elt F)) (v : (main_call2_v0 : Ref sig .tc).ty.Contents (Elt F)) : cast h v = v := cast_eq h v
theorem to_main_call2_v1 (h : (⟨S50000, .f32⟩ : BufTy).Contents (Elt F) = (main_call2_v1 : Ref sig .tc).ty.Contents (Elt F)) (v : (⟨S50000, .f32⟩ : BufTy).Contents (Elt F)) : cast h v = v := cast_eq h v
theorem of_main_call2_v1 (h : (main_call2_v1 : Ref sig .tc).ty.Contents (Elt F) = (⟨S50000, .f32⟩ : BufTy).Contents (Elt F)) (v : (main_call2_v1 : Ref sig .tc).ty.Contents (Elt F)) : cast h v = v := cast_eq h v
theorem to_main_v69 (h : (⟨S50000, .i1⟩ : BufTy).Contents (Elt F) = (main_v69 : Ref sig .tc).ty.Contents (Elt F)) (v : (⟨S50000, .i1⟩ : BufTy).Contents (Elt F)) : cast h v = v := cast_eq h v
theorem of_main_v69 (h : (main_v69 : Ref sig .tc).ty.Contents (Elt F) = (⟨S50000, .i1⟩ : BufTy).Contents (Elt F)) (v : (main_v69 : Ref sig .tc).ty.Contents (Elt F)) : cast h v = v := cast_eq h v
theorem to_main_v72 (h : (⟨S50000, .f32⟩ : BufTy).Contents (Elt F) = (main_v72 : Ref sig .tc).ty.Contents (Elt F)) (v : (⟨S50000, .f32⟩ : BufTy).Contents (Elt F)) : cast h v = v := cast_eq h v
theorem of_main_v72 (h : (main_v72 : Ref sig .tc).ty.Contents (Elt F) = (⟨S50000, .f32⟩ : BufTy).Contents (Elt F)) (v : (main_v72 : Ref sig .tc).ty.Contents (Elt F)) : cast h v = v := cast_eq h v
theorem to_main_v73 (h : (⟨S50000, .f32⟩ : BufTy).Contents (Elt F) = (main_v73 : Ref sig .tc).ty.Contents (Elt F)) (v : (⟨S50000, .f32⟩ : BufTy).Contents (Elt F)) : cast h v = v := cast_eq h v
theorem of_main_v73 (h : (main_v73 : Ref sig .tc).ty.Contents (Elt F) = (⟨S50000, .f32⟩ : BufTy).Contents (Elt F)) (v : (main_v73 : Ref sig .tc).ty.Contents (Elt F)) : cast h v = v := cast_eq h v
theorem to_main_call3_cst (h : (⟨S_, .f32⟩ : BufTy).Contents (Elt F) = (main_call3_cst : Ref sig .tc).ty.Contents (Elt F)) (v : (⟨S_, .f32⟩ : BufTy).Contents (Elt F)) : cast h v = v := cast_eq h v
theorem of_main_call3_cst (h : (main_call3_cst : Ref sig .tc).ty.Contents (Elt F) = (⟨S_, .f32⟩ : BufTy).Contents (Elt F)) (v : (main_call3_cst : Ref sig .tc).ty.Contents (Elt F)) : cast h v = v := cast_eq h v
theorem to_main_call3_v0 (h : (⟨S50000x256, .f32⟩ : BufTy).Contents (Elt F) = (main_call3_v0 : Ref sig .tc).ty.Contents (Elt F)) (v : (⟨S50000x256, .f32⟩ : BufTy).Contents (Elt F)) : cast h v = v := cast_eq h v
theorem of_main_call3_v0 (h : (main_call3_v0 : Ref sig .tc).ty.Contents (Elt F) = (⟨S50000x256, .f32⟩ : BufTy).Contents (Elt F)) (v : (main_call3_v0 : Ref sig .tc).ty.Contents (Elt F)) : cast h v = v := cast_eq h v
theorem to_main_v105 (h : (⟨S50000x256, .f32⟩ : BufTy).Contents (Elt F) = (main_v105 : Ref sig .tc).ty.Contents (Elt F)) (v : (⟨S50000x256, .f32⟩ : BufTy).Contents (Elt F)) : cast h v = v := cast_eq h v
theorem of_main_v105 (h : (main_v105 : Ref sig .tc).ty.Contents (Elt F) = (⟨S50000x256, .f32⟩ : BufTy).Contents (Elt F)) (v : (main_v105 : Ref sig .tc).ty.Contents (Elt F)) : cast h v = v := cast_eq h v
theorem to_main_v106 (h : (⟨S50000x256, .f32⟩ : BufTy).Contents (Elt F) = (main_v106 : Ref sig .tc).ty.Contents (Elt F)) (v : (⟨S50000x256, .f32⟩ : BufTy).Contents (Elt F)) : cast h v = v := cast_eq h v
theorem of_main_v106 (h : (main_v106 : Ref sig .tc).ty.Contents (Elt F) = (⟨S50000x256, .f32⟩ : BufTy).Contents (Elt F)) (v : (main_v106 : Ref sig .tc).ty.Contents (Elt F)) : cast h v = v := cast_eq h v
theorem to_main_call4_cst (h : (⟨S_, .f32⟩ : BufTy).Contents (Elt F) = (main_call4_cst : Ref sig .tc).ty.Contents (Elt F)) (v : (⟨S_, .f32⟩ : BufTy).Contents (Elt F)) : cast h v = v := cast_eq h v
theorem of_main_call4_cst (h : (main_call4_cst : Ref sig .tc).ty.Contents (Elt F) = (⟨S_, .f32⟩ : BufTy).Contents (Elt F)) (v : (main_call4_cst : Ref sig .tc).ty.Contents (Elt F)) : cast h v = v := cast_eq h v
theorem to_main_call4_v0 (h : (⟨S128x256, .f32⟩ : BufTy).Contents (Elt F) = (main_call4_v0 : Ref sig .tc).ty.Contents (Elt F)) (v : (⟨S128x256, .f32⟩ : BufTy).Contents (Elt F)) : cast h v = v := cast_eq h v
theorem of_main_call4_v0 (h : (main_call4_v0 : Ref sig .tc).ty.Contents (Elt F) = (⟨S128x256, .f32⟩ : BufTy).Contents (Elt F)) (v : (main_call4_v0 : Ref sig .tc).ty.Contents (Elt F)) : cast h v = v := cast_eq h v
theorem to_main_v118 (h : (⟨S128x256, .f32⟩ : BufTy).Contents (Elt F) = (main_v118 : Ref sig .tc).ty.Contents (Elt F)) (v : (⟨S128x256, .f32⟩ : BufTy).Contents (Elt F)) : cast h v = v := cast_eq h v
theorem of_main_v118 (h : (main_v118 : Ref sig .tc).ty.Contents (Elt F) = (⟨S128x256, .f32⟩ : BufTy).Contents (Elt F)) (v : (main_v118 : Ref sig .tc).ty.Contents (Elt F)) : cast h v = v := cast_eq h v
theorem to_main_v119 (h : (⟨S128x256, .f32⟩ : BufTy).Contents (Elt F) = (main_v119 : Ref sig .tc).ty.Contents (Elt F)) (v : (⟨S128x256, .f32⟩ : BufTy).Contents (Elt F)) : cast h v = v := cast_eq h v
theorem of_main_v119 (h : (main_v119 : Ref sig .tc).ty.Contents (Elt F) = (⟨S128x256, .f32⟩ : BufTy).Contents (Elt F)) (v : (main_v119 : Ref sig .tc).ty.Contents (Elt F)) : cast h v = v := cast_eq h v
theorem to_main_call5_cst (h : (⟨S_, .f32⟩ : BufTy).Contents (Elt F) = (main_call5_cst : Ref sig .tc).ty.Contents (Elt F)) (v : (⟨S_, .f32⟩ : BufTy).Contents (Elt F)) : cast h v = v := cast_eq h v
theorem of_main_call5_cst (h : (main_call5_cst : Ref sig .tc).ty.Contents (Elt F) = (⟨S_, .f32⟩ : BufTy).Contents (Elt F)) (v : (main_call5_cst : Ref sig .tc).ty.Contents (Elt F)) : cast h v = v := cast_eq h v
theorem to_main_call5_v0 (h : (⟨S128x64, .f32⟩ : BufTy).Contents (Elt F) = (main_call5_v0 : Ref sig .tc).ty.Contents (Elt F)) (v : (⟨S128x64, .f32⟩ : BufTy).Contents (Elt F)) : cast h v = v := cast_eq h v
theorem of_main_call5_v0 (h : (main_call5_v0 : Ref sig .tc).ty.Contents (Elt F) = (⟨S128x64, .f32⟩ : BufTy).Contents (Elt F)) (v : (main_call5_v0 : Ref sig .tc).ty.Contents (Elt F)) : cast h v = v := cast_eq h v
theorem to_main_v123 (h : (⟨S128x64, .f32⟩ : BufTy).Contents (Elt F) = (main_v123 : Ref sig .tc).ty.Contents (Elt F)) (v : (⟨S128x64, .f32⟩ : BufTy).Contents (Elt F)) : cast h v = v := cast_eq h v
theorem of_main_v123 (h : (main_v123 : Ref sig .tc).ty.Contents (Elt F) = (⟨S128x64, .f32⟩ : BufTy).Contents (Elt F)) (v : (main_v123 : Ref sig .tc).ty.Contents (Elt F)) : cast h v = v := cast_eq h v
theorem to_main_v124 (h : (⟨S128x64, .f32⟩ : BufTy).Contents (Elt F) = (main_v124 : Ref sig .tc).ty.Contents (Elt F)) (v : (⟨S128x64, .f32⟩ : BufTy).Contents (Elt F)) : cast h v = v := cast_eq h v
theorem of_main_v124 (h : (main_v124 : Ref sig .tc).ty.Contents (Elt F) = (⟨S128x64, .f32⟩ : BufTy).Contents (Elt F)) (v : (main_v124 : Ref sig .tc).ty.Contents (Elt F)) : cast h v = v := cast_eq h v

end Cert.KernelIdeal.CallCasts

end
-- ==== Proof.Fold.lean ====
/-
  The idealized kernel program's buffer contents, read through its stretches of host operations.

  Between the launch memory and the result the program runs: a first stretch (the embedding rows of the nodes, the
  edge lists with self loops, the degrees and the edge weights), the first product region, a second stretch (the
  weighted rows gathered and added up per target node, the bias, the rectifier, and the edge weights again), the second
  product region, and a last stretch (the same aggregation, the mean per graph, and the two small dense layers). A
  host operation's result is its function of its operands' contents and every other buffer keeps its contents; a
  region's output array ends at the product of the two arrays the region found (the regions module) and every buffer
  that is not one of its arrays keeps its contents. Read this way, from the result back to the launch memory, each
  product's left operand, each product, and the result are the reference's own stages of the argument arrays: the two
  programs apply the same host operations, and the host's dot_general and the regions' product are one sum. A value that
  passes through an outlined call (a `where`, a rectifier) is moved along "the buffer's type is the value's type", which
  gives the value back (the call-buffers module); those moves are taken out before the two sides are compared.
-/
import proofs.«175458_j36515811951203_1_alg».proof.Proof.RegionArrays
import proofs.«175458_j36515811951203_1_alg».proof.Proof.RefReadP
import proofs.«175458_j36515811951203_1_alg».proof.Proof.CallCasts
import Idealize.ShloMosaic.Lib.StableHlo.Run

set_option maxRecDepth 16384

noncomputable section

namespace Cert.KernelIdeal.FoldValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Up to the first region -/

set_option maxHeartbeats 4000000 in
/-- The first product's left operand is the reference's embedding gather of the arguments. -/
theorem W3_v6 (c : Dev nD) : W3 m ρ c (Proc.devRef .tc main_v6) = Cert.ReferenceIdeal.ReadP.val_main_v6 (F := Ideal) (m ((c.tc : Thread nD τ).loc main_arg0)) (m ((c.tc : Thread nD τ).loc main_arg3)) := by
  simp (disch := decide) only [W3, W2, W1, W0, hostOps0, hostOps0_1, hostOps0_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 4000000 in
/-- The first weights are the argument's. -/
theorem W3_arg4 (c : Dev nD) : W3 m ρ c (Proc.devRef .tc main_arg4) = (m ((c.tc : Thread nD τ).loc main_arg4)) := by
  simp (disch := decide) only [W3, W2, W1, W0, hostOps0, hostOps0_1, hostOps0_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The first region's output is the reference's first dot_general of the arguments. -/
theorem W4_v39 (c : Dev nD) : W4 m ρ c (Proc.devRef .tc main_v39)
    = Cert.ReferenceIdeal.ReadP.val_main_v39 (F := Ideal) (m ((c.tc : Thread nD τ).loc main_arg0)) (m ((c.tc : Thread nD τ).loc main_arg3)) (m ((c.tc : Thread nD τ).loc main_arg4)) := by
  refine (W4_arr m ρ c 2).trans ?_
  refine (Cert.KernelIdeal.RegionValue.array0 (V3 m ρ) c).trans ?_
  refine (PlainDot.dotGeneral_eq_mm (M := 50000) (K := 256) (N := 256) (φ₁ := .f32) (φ₂ := .f32) none .single _ _).symm.trans ?_
  show Host.dotGeneral (F := Ideal) Cert.ReferenceIdeal.dot_S50000x256_S256x256_S50000x256_1_0_0_1_n_n none
      (W3 m ρ c (Proc.devRef .tc main_v6)) (W3 m ρ c (Proc.devRef .tc main_arg4)) = _
  rw [W3_v6, W3_arg4]
  rfl

/-! ## Between the regions -/

set_option maxHeartbeats 8000000 in
/-- The second product's left operand is the reference's first layer of the arguments. -/
theorem W9_v56 (c : Dev nD) : W9 m ρ c (Proc.devRef .tc main_v56)
    = Cert.ReferenceIdeal.ReadP.val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp (disch := decide) only [W9, W8, W7, W6, W5, W3, W2, W1, W0, hostOps1, hostOps1_1, hostOps1_2, hostOps1_3, hostOps1_4, hostOps0, hostOps0_1, hostOps0_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, CallCasts.to_main_cst_4, CallCasts.of_main_cst_4, CallCasts.to_main_call0_v0, CallCasts.of_main_call0_v0, CallCasts.to_main_call0_v1, CallCasts.of_main_call0_v1, CallCasts.to_main_v19, CallCasts.of_main_v19, CallCasts.to_main_v22, CallCasts.of_main_v22, CallCasts.to_main_v23, CallCasts.of_main_v23, CallCasts.to_main_call1_cst, CallCasts.of_main_call1_cst, CallCasts.to_main_call1_v0, CallCasts.of_main_call1_v0, CallCasts.to_main_v55, CallCasts.of_main_v55, CallCasts.to_main_v56, CallCasts.of_main_v56, CallCasts.to_main_cst_16, CallCasts.of_main_cst_16, CallCasts.to_main_call2_v0, CallCasts.of_main_call2_v0, CallCasts.to_main_call2_v1, CallCasts.of_main_call2_v1, CallCasts.to_main_v69, CallCasts.of_main_v69, CallCasts.to_main_v72, CallCasts.of_main_v72, CallCasts.to_main_v73, CallCasts.of_main_v73, CallCasts.to_main_call3_cst, CallCasts.of_main_call3_cst, CallCasts.to_main_call3_v0, CallCasts.of_main_call3_v0, CallCasts.to_main_v105, CallCasts.of_main_v105, CallCasts.to_main_v106, CallCasts.of_main_v106, CallCasts.to_main_call4_cst, CallCasts.of_main_call4_cst, CallCasts.to_main_call4_v0, CallCasts.of_main_call4_v0, CallCasts.to_main_v118, CallCasts.of_main_v118, CallCasts.to_main_v119, CallCasts.of_main_v119, CallCasts.to_main_call5_cst, CallCasts.of_main_call5_cst, CallCasts.to_main_call5_v0, CallCasts.of_main_call5_v0, CallCasts.to_main_v123, CallCasts.of_main_v123, CallCasts.to_main_v124, CallCasts.of_main_v124, W4_v39 m ρ c, W4_of_ne m ρ c main_v10 (by decide), W4_of_ne m ρ c main_v13 (by decide), W4_of_ne m ρ c main_v38 (by decide), W4_of_ne m ρ c main_arg1 (by decide), W4_of_ne m ρ c main_arg5 (by decide)]
  rfl

set_option maxHeartbeats 8000000 in
/-- The second weights are the argument's. -/
theorem W9_arg6 (c : Dev nD) : W9 m ρ c (Proc.devRef .tc main_arg6) = (m ((c.tc : Thread nD τ).loc main_arg6)) := by
  simp (disch := decide) only [W9, W8, W7, W6, W5, W3, W2, W1, W0, hostOps1, hostOps1_1, hostOps1_2, hostOps1_3, hostOps1_4, hostOps0, hostOps0_1, hostOps0_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W4_of_ne m ρ c main_arg6 (by decide)]

/-- The second region's output is the reference's second dot_general of the arguments. -/
theorem W10_v89 (c : Dev nD) : W10 m ρ c (Proc.devRef .tc main_v89)
    = Cert.ReferenceIdeal.ReadP.val_main_v89 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ?_
  refine (Cert.KernelIdeal.RegionValue.array1 (V9 m ρ) c).trans ?_
  refine (PlainDot.dotGeneral_eq_mm (M := 50000) (K := 256) (N := 256) (φ₁ := .f32) (φ₂ := .f32) none .single _ _).symm.trans ?_
  show Host.dotGeneral (F := Ideal) Cert.ReferenceIdeal.dot_S50000x256_S256x256_S50000x256_1_0_0_1_n_n none
      (W9 m ρ c (Proc.devRef .tc main_v56)) (W9 m ρ c (Proc.devRef .tc main_arg6)) = _
  rw [W9_v56, W9_arg6]
  rfl

/-! ## After the second region -/

set_option maxHeartbeats 16000000 in
/-- The result is the reference's last stage of the arguments. -/
theorem result_eq (c : Dev nD) : W17 m ρ c (Proc.devRef .tc main_v129)
    = Cert.ReferenceIdeal.ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp (disch := decide) only [W17, W16, W15, W14, W13, W12, W11, W9, W8, W7, W6, W5, W3, W2, W1, W0, hostOps2, hostOps2_1, hostOps2_2, hostOps2_3, hostOps2_4, hostOps2_5, hostOps2_6, hostOps1, hostOps1_1, hostOps1_2, hostOps1_3, hostOps1_4, hostOps0, hostOps0_1, hostOps0_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, CallCasts.to_main_cst_4, CallCasts.of_main_cst_4, CallCasts.to_main_call0_v0, CallCasts.of_main_call0_v0, CallCasts.to_main_call0_v1, CallCasts.of_main_call0_v1, CallCasts.to_main_v19, CallCasts.of_main_v19, CallCasts.to_main_v22, CallCasts.of_main_v22, CallCasts.to_main_v23, CallCasts.of_main_v23, CallCasts.to_main_call1_cst, CallCasts.of_main_call1_cst, CallCasts.to_main_call1_v0, CallCasts.of_main_call1_v0, CallCasts.to_main_v55, CallCasts.of_main_v55, CallCasts.to_main_v56, CallCasts.of_main_v56, CallCasts.to_main_cst_16, CallCasts.of_main_cst_16, CallCasts.to_main_call2_v0, CallCasts.of_main_call2_v0, CallCasts.to_main_call2_v1, CallCasts.of_main_call2_v1, CallCasts.to_main_v69, CallCasts.of_main_v69, CallCasts.to_main_v72, CallCasts.of_main_v72, CallCasts.to_main_v73, CallCasts.of_main_v73, CallCasts.to_main_call3_cst, CallCasts.of_main_call3_cst, CallCasts.to_main_call3_v0, CallCasts.of_main_call3_v0, CallCasts.to_main_v105, CallCasts.of_main_v105, CallCasts.to_main_v106, CallCasts.of_main_v106, CallCasts.to_main_call4_cst, CallCasts.of_main_call4_cst, CallCasts.to_main_call4_v0, CallCasts.of_main_call4_v0, CallCasts.to_main_v118, CallCasts.of_main_v118, CallCasts.to_main_v119, CallCasts.of_main_v119, CallCasts.to_main_call5_cst, CallCasts.of_main_call5_cst, CallCasts.to_main_call5_v0, CallCasts.of_main_call5_v0, CallCasts.to_main_v123, CallCasts.of_main_v123, CallCasts.to_main_v124, CallCasts.of_main_v124, W10_v89 m ρ c, W10_of_ne m ρ c main_v60 (by decide), W10_of_ne m ρ c main_v63 (by decide), W10_of_ne m ρ c main_v88 (by decide), W10_of_ne m ρ c main_arg2 (by decide), W10_of_ne m ρ c main_arg7 (by decide), W10_of_ne m ρ c main_arg8 (by decide), W10_of_ne m ρ c main_arg9 (by decide), W10_of_ne m ρ c main_arg10 (by decide), W10_of_ne m ρ c main_arg11 (by decide), W4_of_ne m ρ c main_arg1 (by decide), W4_of_ne m ρ c main_arg2 (by decide), W4_of_ne m ρ c main_arg7 (by decide), W4_of_ne m ρ c main_arg8 (by decide), W4_of_ne m ρ c main_arg9 (by decide), W4_of_ne m ρ c main_arg10 (by decide), W4_of_ne m ρ c main_arg11 (by decide)]
  rfl

end Cert.KernelIdeal.FoldValue

end
-- ==== Proof.lean ====
/-
  The proof of `Cert.Claim`: the kernel program and its reference compute the same graph network on extended reals.

  Both programs embed the nodes, run two graph-convolution layers (a dense product, rows gathered along the edges
  with self loops and scaled by the symmetric degree normalisation, added up per target node, a bias, a rectifier),
  average the nodes of each graph and apply two small dense layers. They are the same host operations in the same
  order except for the two dense products of a 50000×256 array with 256×256 weights: the reference takes each as one
  dot_general, the kernel as a pipelined region that multiplies 5000 rows at a grid point into a zero accumulator
  after casts that are the identity on extended reals. A row of a product depends on that row of the left operand only
  and the ten blocks of rows cover the output, so each region leaves the whole product, which is the host's sum. No
  law of arithmetic beyond that is used, so the precondition is never opened.

  The frames of the two kernel programs are the generated ones. The reference's frame is its run with the result
  dropped. The ideal pass rewrote nothing, so the preservation claim is trivial. For the algebraic claim the kernel's
  run ends with the result buffer at the last boundary's contents, which read back through the stretches and the two
  regions are the reference's last stage of the arguments; the reference's run ends at the same stage of arguments
  that agree.
-/
import proofs.«175458_j36515811951203_1_alg».proof.Defs
import proofs.«175458_j36515811951203_1_alg».proof.Proof.Gen.Kernel
import proofs.«175458_j36515811951203_1_alg».proof.Proof.Gen.Kernel.Skeleton
import proofs.«175458_j36515811951203_1_alg».proof.Proof.Gen.Kernel.Launch
import proofs.«175458_j36515811951203_1_alg».proof.Proof.Gen.Kernel.Points
import proofs.«175458_j36515811951203_1_alg».proof.Proof.Gen.Kernel.Frame
import proofs.«175458_j36515811951203_1_alg».proof.Proof.Gen.KernelIdeal
import proofs.«175458_j36515811951203_1_alg».proof.Proof.Gen.KernelIdeal.Skeleton
import proofs.«175458_j36515811951203_1_alg».proof.Proof.Gen.KernelIdeal.Launch
import proofs.«175458_j36515811951203_1_alg».proof.Proof.Gen.KernelIdeal.Points
import proofs.«175458_j36515811951203_1_alg».proof.Proof.Gen.KernelIdeal.Frame
import proofs.«175458_j36515811951203_1_alg».proof.Proof.Gen.ReferenceIdeal
import proofs.«175458_j36515811951203_1_alg».proof.Proof.Gen.Pre_finite_inputs
import proofs.«175458_j36515811951203_1_alg».proof.Proof.KernelRun
import proofs.«175458_j36515811951203_1_alg».proof.Proof.Fold
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the result at the reference's last stage of
    the kernel program's argument arrays. -/
theorem algebraic : Cert.algebraic_KernelIdeal_ReferenceIdeal := by
  intro m ρ m' ρ' _ hagree
  refine ⟨fun c => Cert.ReferenceIdeal.ReadP.val_main_v129 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.FoldValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.ReadP.val_main_v129_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
